-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S1 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S8192x4096 : Shape := ⟨2, ![8192, 4096]⟩
abbrev S_ : Shape := ⟨0, ![]⟩
abbrev S1x16384 : Shape := ⟨2, ![1, 16384]⟩
abbrev S8192x16384 : Shape := ⟨2, ![8192, 16384]⟩
abbrev S1024x1024 : Shape := ⟨2, ![1024, 1024]⟩
abbrev S1x1024 : Shape := ⟨2, ![1, 1024]⟩
abbrev S4x2048x16384 : Shape := ⟨3, ![4, 2048, 16384]⟩

abbrev nBuf : Space → Nat
  | .hbm => 14
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S1, .f32⟩
  | .hbm, ⟨3, _⟩ => ⟨S16384, .f32⟩
  | .hbm, ⟨4, _⟩ => ⟨S8192x4096, .f32⟩
  | .hbm, ⟨5, _⟩ => ⟨S8192x4096, .bf16⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S1x16384, .f32⟩
  | .hbm, ⟨12, _⟩ => ⟨S8192x16384, .f32⟩
  | .hbm, ⟨13, _⟩ => ⟨S4x2048x16384, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  shapeCasts_S1_S_ : S1.ShapeCasts S_
  bcast_S_S16384x4096 : S_.BroadcastsInDim S16384x4096 (![] : Fin 0 → Fin S16384x4096.rank)
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x16384_S4x2048x16384 : S8192x16384.ShapeCasts S4x2048x16384
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .bf16 = 32 ∨ (Rect.block (s := S16384x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x16384.size a
  hwx0_3 : ∀ i : grid0.Coords, EltTy.bits .f32 = 32 ∨ (Rect.block (s := S8192x16384) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S1 : Shape := ⟨1, ![1]⟩
abbrev S16384 : Shape := ⟨1, ![16384]⟩
abbrev S1x1 : Shape := ⟨2, ![1, 1]⟩
abbrev S4x2048x16384 : Shape := ⟨3, ![4, 2048, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S1, .f32⟩
  | .hbm, ⟨3, _⟩ => ⟨S16384, .f32⟩
  | .hbm, ⟨4, _⟩ => ⟨S16384x4096, .f32⟩
  | .hbm, ⟨5, _⟩ => ⟨S1x1, .f32⟩
  | .hbm, ⟨6, _⟩ => ⟨S16384x4096, .f32⟩
  | .hbm, ⟨7, _⟩ => ⟨S16384x4096, .f32⟩
  | .hbm, ⟨8, _⟩ => ⟨S4x2048x16384, .f32⟩
  | .hbm, ⟨9, _⟩ => ⟨S1x1x16384, .f32⟩
  | .hbm, ⟨10, _⟩ => ⟨S4x2048x16384, .f32⟩
  | .hbm, ⟨11, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S16384x4096_0_1 : S1x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Pieces.lean ====
/-
  What one call of the body leaves behind, as values of what it was given — for any float instance.

  The body is run in three situations, told apart by the position `k` along the contracted axis of the grid:
  * `k = 0`: it resets the accumulator tile to zero and then adds the first partial product into it;
  * `0 < k < 3`: it adds one more partial product into the accumulator the previous point left;
  * `k = 3`: it adds the last partial product, and stores accumulator + bias row into the output tile.
  Each stored tile is written whole, so what a buffer holds afterwards is the last value stored into it; a tile read back
  after a whole store is that store's value.
-/
import proofs.«154579_j26517128085921_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- Every store and load of the body is at the tile's origin. -/
theorem origin : (![0, 0] : Fin 2 → Nat) = fun _ => 0 := funext fun a => by fin_cases a <;> rfl

/-- First point of a run: the accumulator ends at (zero tile) stepped by the point's two input tiles. -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, harg3.read_unread, harg4.read_unread, View.ld_unit_zero (S := S1024x1024) origin]

/-- A middle point: the accumulator the point before left, stepped by this point's two input tiles. -/
theorem acc_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero origin]
  simp only [View.readAt_eq_ld, harg3.read_unread, harg4.read_unread, harg7.read_unread,
    View.ld_unit_zero (S := S1024x1024) origin]

/-- The last point of a run leaves the same in the accumulator … -/
theorem acc_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread,
    View.ld_unit_zero (S := S1024x1024) origin]

/-- … and stores that accumulator plus the bias row into the output tile. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin, View.readCov_unit_zero (S := S1024x1024) _ origin]
  simp only [View.readAt_eq_ld, harg3.read_unread, harg4.read_unread, harg5.read_unread, harg7.read_unread,
    View.ld_unit_zero (S := S1024x1024) origin, View.ld_unit_zero (S := S1x1024) origin]

end Cert.KernelIdeal.Pieces

end
-- ==== Proof.Payload.lean ====
/-
  The body's three stored values, each read at one place `(p, q)` of its 1024 × 1024 tile, on the extended reals.

  * the reset value is `0` everywhere;
  * the accumulating step leaves, at `(p, q)`, what the accumulator held there plus the dot product of row `p` of the
    token tile with row `q` of the weight tile (both tiles are contracted along their second axis, so no transpose of the
    weight tile is involved, and the product's own accumulator is the zero tile);
  * the final step adds the bias row, broadcast down the tile: place `(p, q)` gets the row's entry `q`.
-/
import proofs.«154579_j26517128085921_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The reset tile is zero at every place. -/
theorem reset_apply (j : S1024x1024.Idx) : k0_pay1 (F := Ideal) j = 0 := by
  unfold k0_pay1
  simp only [shapeCast_self]
  exact Ideal.ofBits_zero_f32

/-! The product contracts the second axis of both tiles: at output place `j` and contraction place `k` it reads the left
    tile at `(j₀, k)` and the right tile at `(j₁, k)`. -/

theorem left_row (j : S1024x1024.Idx) (k : dot_S1024x1024_S1024x1024_S1024x1024_1_1_0_0_n_n.contr.Idx) : (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

theorem left_col (j : S1024x1024.Idx) (k : dot_S1024x1024_S1024x1024_S1024x1024_1_1_0_0_n_n.contr.Idx) : (dot_S1024x1024_S1024x1024_S1024x1024_1_1_0_0_n_n.lhsIdx j k 1).val = (k ⟨0, by decide⟩).val :=
  dot_S1024x1024_S1024x1024_S1024x1024_1_1_0_0_n_n.lhsIdx_val_of_single rfl j k

theorem right_row (j : S1024x1024.Idx) (k : dot_S1024x1024_S1024x1024_S1024x1024_1_1_0_0_n_n.contr.Idx) : (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

theorem right_col (j : S1024x1024.Idx) (k : dot_S1024x1024_S1024x1024_S1024x1024_1_1_0_0_n_n.contr.Idx) : (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- The accumulating step at `(p, q)`: the old accumulator there plus row `p` of the token tile against row `q` of the
    weight tile. -/
theorem step_apply (acc : Vec Ideal S1024x1024 .f32) (xt wt : Vec Ideal S1024x1024 .bf16) (p q : Fin 1024) :
    k0_pay2 (F := Ideal) acc xt wt (ix2 p q) = acc (ix2 p q) + ∑ e : Fin 1024, xt (ix2 p e) * wt (ix2 q e) := by
  unfold k0_pay2
  simp only [shapeCast_self]
  rw [addf_apply]
  congr 1
  simp only [matmul]
  rw [Ideal.matmul_constant_zero_apply, ← Equiv.sum_comp (contrEquiv1 dot_S1024x1024_S1024x1024_S1024x1024_1_1_0_0_n_n 1024 rfl rfl).symm]
  refine Finset.sum_congr rfl fun e _ => ?_
  have hk := contrEquiv1_symm_val dot_S1024x1024_S1024x1024_S1024x1024_1_1_0_0_n_n 1024 rfl rfl e
  have el : dot_S1024x1024_S1024x1024_S1024x1024_1_1_0_0_n_n.lhsIdx (ix2 p q) ((contrEquiv1 dot_S1024x1024_S1024x1024_S1024x1024_1_1_0_0_n_n 1024 rfl rfl).symm e) = ix2 p e :=
    funext fun a => Fin.ext (by
      match a with
      | ⟨0, _⟩ => exact left_row _ _
      | ⟨1, _⟩ => exact (left_col _ _).trans hk)
  have er : dot_S1024x1024_S1024x1024_S1024x1024_1_1_0_0_n_n.rhsIdx (ix2 p q) ((contrEquiv1 dot_S1024x1024_S1024x1024_S1024x1024_1_1_0_0_n_n 1024 rfl rfl).symm e) = ix2 q e :=
    funext fun a => Fin.ext (by
      match a with
      | ⟨0, _⟩ => exact right_row _ _
      | ⟨1, _⟩ => exact (right_col _ _).trans hk)
  rw [el, er]

/-- The final step at `(p, q)`: the accumulator there plus entry `q` of the bias row. -/
theorem finish_apply (acc : Vec Ideal S1024x1024 .f32) (brow : Vec Ideal S1x1024 .f32) (p q : Fin 1024) :
    k0_pay3 (F := Ideal) acc brow (ix2 p q) = acc (ix2 p q) + brow (ix2 (0 : Fin 1) q) := by
  unfold k0_pay3
  simp only [shapeCast_self]
  rw [addf_apply, broadcastTo_1b_ab_apply]

end Cert.KernelIdeal.Payload

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Spec.lean ====
/-
  The mathematics of the layer, with no program in sight.

  The layer is `y[b,s,o] = Σ_k x[b,s,k] · w[o,k] + bias[o]` over `k < 4096`, where `w[o,k] = float(code[o,k]) · scale`
  is the dequantized weight.  The tiled computation does not take this sum in one go: it cuts the contracted axis into
  four consecutive runs of 1024, starts an accumulator at the first run's partial dot product and adds one further run at a
  time.  `partialDot f g j` is the accumulator after run `j`; after the fourth run it is the whole dot product
  (`partialDot_three`), because a sum over `4 · 1024` consecutive places may be taken run by run in any commutative
  additive monoid — in particular on the extended reals, where no finiteness is needed for regrouping a sum.
-/
import Idealize.ShloMosaic.PureOps.Ideal
import Idealize.ShloMosaic.Lib.ValueIdx
import proofs.«154579_j26517128085921_2_alg».proof.Proof.LibBlockSum

noncomputable section

open scoped BigOperators

namespace Cert.Dense

open Idealize.ShloMosaic Idealize.ShloMosaic.ValueIdx

/-- A rank-2 array read at a pair of naturals: the entry when the pair is inside the array, `0` outside (never used
    there; it makes the function total so that row and column arithmetic can be done on naturals). -/
def at2 {a b : ℕ} (X : (⟨2, ![a, b]⟩ : Shape).Idx → EReal) (r k : ℕ) : EReal :=
  if h : r < a ∧ k < b then X (ix2 ⟨r, h.1⟩ ⟨k, h.2⟩) else 0

theorem at2_of_lt {a b : ℕ} (X : (⟨2, ![a, b]⟩ : Shape).Idx → EReal) (r k : ℕ) (hr : r < a) (hk : k < b) :
    at2 X r k = X (ix2 ⟨r, hr⟩ ⟨k, hk⟩) := dif_pos ⟨hr, hk⟩

/-- The dot product of two sequences over the first `j + 1` runs of 1024 places: place `e` of run `s` is `e + 1024·s`. -/
def partialDot (f g : ℕ → EReal) (j : ℕ) : EReal :=
  ∑ s ∈ Finset.range (j + 1), ∑ e : Fin 1024, f (e.val + 1024 * s) * g (e.val + 1024 * s)

/-- After the first run: that run's dot product. -/
theorem partialDot_zero (f g : ℕ → EReal) : partialDot f g 0 = ∑ e : Fin 1024, f (e.val + 1024 * 0) * g (e.val + 1024 * 0) := by
  unfold partialDot
  rw [Finset.sum_range_one]

/-- One more run: the accumulator plus that run's dot product. -/
theorem partialDot_succ (f g : ℕ → EReal) (j : ℕ) :
    partialDot f g (j + 1) = partialDot f g j + ∑ e : Fin 1024, f (e.val + 1024 * (j + 1)) * g (e.val + 1024 * (j + 1)) := by
  unfold partialDot
  rw [Finset.sum_range_succ _ (j + 1)]

/-- After the fourth run the accumulator is the dot product over all 4096 places. -/
theorem partialDot_three (f g : ℕ → EReal) : partialDot f g 3 = ∑ k : Fin 4096, f k.val * g k.val := by
  unfold partialDot
  rw [Finset.sum_range]
  exact (Cert.Lib.BlockSum.sum_fin_mul 4 1024 fun n => f n * g n).symm

/-- The dequantized weights: the integer code as a number, times the one scale. -/
def dequant (code : (⟨2, ![16384, 4096]⟩ : Shape).Idx → BitVec 32) (scale : (⟨1, ![1]⟩ : Shape).Idx → EReal) :
    (⟨2, ![16384, 4096]⟩ : Shape).Idx → EReal :=
  fun j => FloatOps.sitofp (F := Ideal) .f32 (code j) * scale (ix1 (0 : Fin 1))

/-- The layer: every output feature `o` of every token `(b, s)` is the dot product of the token with weight row `o`,
    plus that feature's bias. -/
def dense (x : (⟨3, ![4, 2048, 4096]⟩ : Shape).Idx → EReal) (w : (⟨2, ![16384, 4096]⟩ : Shape).Idx → EReal)
    (bias : (⟨1, ![16384]⟩ : Shape).Idx → EReal) : (⟨3, ![4, 2048, 16384]⟩ : Shape).Idx → EReal :=
  fun i => (∑ k : Fin 4096, x (ix3 (i 0 : Fin 4) (i 1 : Fin 2048) k) * w (ix2 (i 2 : Fin 16384) k)) + bias (ix1 (i 2 : Fin 16384))

end Cert.Dense

end
-- ==== Proof.Blocks.lean ====
/-
  Where the tiles come from.

  The grid has 8 · 16 · 4 = 512 points; point `t` is row tile `t / 64`, column tile `t / 4 % 16` and run `t % 4` of the
  contracted axis (the last grid axis moves fastest).  At point `t`
  * the token tile is rows `1024·(t/64) …` and columns `1024·(t%4) …` of the [8192, 4096] token matrix;
  * the weight tile is rows `1024·(t/4%16) …` and columns `1024·(t%4) …` of the [16384, 4096] weight matrix;
  * the bias tile is columns `1024·(t/4%16) …` of the [1, 16384] bias row;
  * the output tile is rows `1024·(t/64) …` and columns `1024·(t/4%16) …` of the [8192, 16384] result.
  The three matrices themselves are made before the tiled computation starts: the token matrix is the [4, 2048, 4096] input
  with its first two axes merged (row `r` is token `(r / 2048, r % 2048)`), the weight matrix is the dequantized codes, the
  bias row is the bias vector; the changes of float format on the way are the identity on the extended reals.
-/
import proofs.«154579_j26517128085921_2_alg».proof.Proof.Gen.KernelIdeal.Frame
import proofs.«154579_j26517128085921_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.Dense

variable (m : (ℓ : Loc nD τ sig) → Buf (Elt Ideal) ℓ)

/-! ## Which tile a point works on -/

theorem tokens_index : ∀ t : Fin cfg0.N, win0_0.index t 0 = t.val / 64 ∧ win0_0.index t 1 = t.val % 4 :=
  (by decide +kernel : ∀ t : Fin grid0.N, win0_0.index t 0 = t.val / 64 ∧ win0_0.index t 1 = t.val % 4)

theorem weights_index : ∀ t : Fin cfg0.N, win0_1.index t 0 = t.val / 4 % 16 ∧ win0_1.index t 1 = t.val % 4 :=
  (by decide +kernel : ∀ t : Fin grid0.N, win0_1.index t 0 = t.val / 4 % 16 ∧ win0_1.index t 1 = t.val % 4)

theorem bias_index : ∀ t : Fin cfg0.N, win0_2.index t 0 = 0 ∧ win0_2.index t 1 = t.val / 4 % 16 :=
  (by decide +kernel : ∀ t : Fin grid0.N, win0_2.index t 0 = 0 ∧ win0_2.index t 1 = t.val / 4 % 16)

theorem out_index : ∀ t : Fin cfg0.N, win0_3.index t 0 = t.val / 64 ∧ win0_3.index t 1 = t.val / 4 % 16 :=
  (by decide +kernel : ∀ t : Fin grid0.N, win0_3.index t 0 = t.val / 64 ∧ win0_3.index t 1 = t.val / 4 % 16)

/-! ## The input tiles at a place -/

/-- Place `(p, e)` of the token tile at point `t`. -/
theorem tokens_at (c : Dev nD) (t : Fin cfg0.N) (p e : Fin 1024) :
    (iblk m c 0 t : Vec Ideal S1024x1024 .bf16) (ix2 p e)
      = at2 (V m c main_v1 : S8192x4096.Idx → EReal) (p.val + 1024 * (t.val / 64)) (e.val + 1024 * (t.val % 4)) := by
  have hN : t.val < 512 := lt_of_lt_of_eq t.isLt N_0
  rw [at2_of_lt _ _ _ (by omega) (by omega)]
  unfold iblk
  rw [View.read_apply]
  show V m c main_v1 _ = V m c main_v1 _
  congr 1
  funext a
  apply Fin.ext
  match a with
  | ⟨0, _⟩ => show win0_0.index t 0 * 1024 + 1 * p.val = p.val + 1024 * (t.val / 64); rw [(tokens_index t).1]; omega
  | ⟨1, _⟩ => show win0_0.index t 1 * 1024 + 1 * e.val = e.val + 1024 * (t.val % 4); rw [(tokens_index t).2]; omega

/-- Place `(q, e)` of the weight tile at point `t`. -/
theorem weights_at (c : Dev nD) (t : Fin cfg0.N) (q e : Fin 1024) :
    (iblk m c 1 t : Vec Ideal S1024x1024 .bf16) (ix2 q e)
      = at2 (V m c main_v6 : S16384x4096.Idx → EReal) (q.val + 1024 * (t.val / 4 % 16)) (e.val + 1024 * (t.val % 4)) := by
  have hN : t.val < 512 := lt_of_lt_of_eq t.isLt N_0
  rw [at2_of_lt _ _ _ (by omega) (by omega)]
  unfold iblk
  rw [View.read_apply]
  show V m c main_v6 _ = V m c main_v6 _
  congr 1
  funext a
  apply Fin.ext
  match a with
  | ⟨0, _⟩ => show win0_1.index t 0 * 1024 + 1 * q.val = q.val + 1024 * (t.val / 4 % 16); rw [(weights_index t).1]; omega
  | ⟨1, _⟩ => show win0_1.index t 1 * 1024 + 1 * e.val = e.val + 1024 * (t.val % 4); rw [(weights_index t).2]; omega

/-- Entry `q` of the bias tile at point `t`. -/
theorem bias_at (c : Dev nD) (t : Fin cfg0.N) (q : Fin 1024) :
    (iblk m c 2 t : Vec Ideal S1x1024 .f32) (ix2 (0 : Fin 1) q)
      = at2 (V m c main_v7 : S1x16384.Idx → EReal) 0 (q.val + 1024 * (t.val / 4 % 16)) := by
  have hN : t.val < 512 := lt_of_lt_of_eq t.isLt N_0
  rw [at2_of_lt _ _ _ (by omega) (by omega)]
  unfold iblk
  rw [View.read_apply]
  show V m c main_v7 _ = V m c main_v7 _
  congr 1
  funext a
  apply Fin.ext
  match a with
  | ⟨0, _⟩ => show win0_2.index t 0 * 1 + 1 * 0 = 0; rw [(bias_index t).1]
  | ⟨1, _⟩ => show win0_2.index t 1 * 1024 + 1 * q.val = q.val + 1024 * (t.val / 4 % 16); rw [(bias_index t).2]; omega

/-! ## The three matrices, from the arguments -/

/-- The token matrix: the input with its first two axes merged. -/
theorem tokens_matrix (c : Dev nD) (r : Fin 8192) (k : Fin 4096) :
    (V m c main_v1 : S8192x4096.Idx → EReal) (ix2 r k)
      = m ((c : Thread nD τ).loc main_arg0) (ix3 (⟨r.val / 2048, by omega⟩ : Fin 4) (⟨r.val % 2048, by omega⟩ : Fin 2048) k) := by
  have e : @Eq (S8192x4096.Idx → EReal) (V m c main_v1)
      (truncf (F := Ideal) .bf16 (shapeCast S8192x4096 (m ((c : Thread nD τ).loc main_arg0) : S4x2048x4096.Idx → EReal)
        shapeCasts_S4x2048x4096_S8192x4096) bitsLt_bf16_f32) := by
    show StableHlo.after hostOps0 (fun b => m (c, b)) (Proc.devRef .tc main_v1) = _
    after_results
    rfl
  rw [e, truncf_apply]
  refine shapeCast_apply (s := S4x2048x4096) (t := S8192x4096) _ _ _ _ ?_
  rw [Shape.rowMajor_val_two, Shape.rowMajor_val_three]
  show ((r.val / 2048) * 2048 + r.val % 2048) * 4096 + k.val = r.val * 4096 + k.val
  omega

/-- The weight matrix: the dequantized codes. -/
theorem weights_matrix (c : Dev nD) (j : S16384x4096.Idx) :
    (V m c main_v6 : S16384x4096.Idx → EReal) j
      = dequant (m ((c : Thread nD τ).loc main_arg1)) (m ((c : Thread nD τ).loc main_arg2)) j := by
  have e : @Eq (S16384x4096.Idx → EReal) (V m c main_v6)
      (truncf (F := Ideal) .bf16 (mulf (sitofp (F := Ideal) .f32 (m ((c : Thread nD τ).loc main_arg1) : S16384x4096.Idx → BitVec 32))
          (broadcastInDim S16384x4096 ![] bcast_S_S16384x4096
            (shapeCast S_ (m ((c : Thread nD τ).loc main_arg2) : S1.Idx → EReal) shapeCasts_S1_S_))) bitsLt_bf16_f32) := by
    show StableHlo.after hostOps0 (fun b => m (c, b)) (Proc.devRef .tc main_v6) = _
    after_results
    rfl
  rw [e, truncf_apply, mulf_apply, sitofp_apply]
  unfold dequant
  congr 1
  refine (broadcastInDim_apply _ bcast_S_S16384x4096 _ j ix0 (fun a => a.elim0)).trans ?_
  refine shapeCast_apply (s := S1) (t := S_) _ _ _ _ ?_
  rw [Shape.rowMajor_val_one]
  rfl

/-- The bias row: the bias vector laid out as one row. -/
theorem bias_matrix (c : Dev nD) (o : Fin 16384) :
    (V m c main_v7 : S1x16384.Idx → EReal) (ix2 (0 : Fin 1) o) = m ((c : Thread nD τ).loc main_arg3) (ix1 o) := by
  have e : @Eq (S1x16384.Idx → EReal) (V m c main_v7)
      (shapeCast S1x16384 (m ((c : Thread nD τ).loc main_arg3) : S16384.Idx → EReal) shapeCasts_S16384_S1x16384) := by
    show StableHlo.after hostOps0 (fun b => m (c, b)) (Proc.devRef .tc main_v7) = _
    after_results
    rfl
  rw [e]
  exact shapeCast_a_1a_apply _ _ _ _

end Cert.KernelIdeal.Blocks

end
-- ==== Proof.Running.lean ====
/-
  The accumulator along a run of the contracted axis, and the tile that is written back.

  Fix a row tile and a column tile.  The four points of their run visit the four consecutive blocks of 1024 columns of the
  contracted axis; the first resets the accumulator and adds its partial product, each later one adds its own.  So after the
  point at position `j` of the run the accumulator holds, at place `(p, q)`, the dot product of token row
  `p + 1024·(row tile)` with weight row `q + 1024·(column tile)` over the first `j + 1` blocks — by induction on the point,
  the row and column tiles not changing inside a run.  The last point of the run stores that (now complete) dot product plus
  the bias entry of column `q + 1024·(column tile)`.
-/
import proofs.«154579_j26517128085921_2_alg».proof.Proof.Pieces
import proofs.«154579_j26517128085921_2_alg».proof.Proof.Payload
import proofs.«154579_j26517128085921_2_alg».proof.Proof.Blocks

noncomputable section

open scoped BigOperators

namespace Cert.KernelIdeal.Running

open Cert.KernelIdeal Cert.KernelIdeal.Gen Idealize.ShloMosaic Idealize.ShloMosaic.TcCoe Idealize.SL.Sem
open Idealize.ShloMosaic.ValueIdx Cert.Dense Cert.KernelIdeal.Blocks

variable (m : (ℓ : Loc nD τ sig) → Buf (Elt Ideal) ℓ)

/-- Row `r` of the token matrix, as a sequence. -/
abbrev tokenRow (c : Dev nD) (r : ℕ) : ℕ → EReal := fun k => at2 (V m c main_v1 : S8192x4096.Idx → EReal) r k
/-- Row `o` of the weight matrix, as a sequence. -/
abbrev weightRow (c : Dev nD) (o : ℕ) : ℕ → EReal := fun k => at2 (V m c main_v6 : S16384x4096.Idx → EReal) o k

/-- The token tile and the weight tile of a point, as tiles of extended reals. -/
abbrev tokenTile (c : Dev nD) (t : Fin cfg0.N) : Vec Ideal S1024x1024 .bf16 := iblk m c 0 t
abbrev weightTile (c : Dev nD) (t : Fin cfg0.N) : Vec Ideal S1024x1024 .bf16 := iblk m c 1 t

/-- The partial product a point adds at place `(p, q)`: its block of columns of the two rows. -/
theorem product_at (c : Dev nD) (t : Fin cfg0.N) (p q : Fin 1024) :
    ∑ e : Fin 1024, tokenTile m c t (ix2 p e) * weightTile m c t (ix2 q e)
      = ∑ e : Fin 1024, tokenRow m c (p.val + 1024 * (t.val / 64)) (e.val + 1024 * (t.val % 4))
          * weightRow m c (q.val + 1024 * (t.val / 4 % 16)) (e.val + 1024 * (t.val % 4)) :=
  Finset.sum_congr rfl fun e _ => congrArg₂ (· * ·) (tokens_at m c t p e) (weights_at m c t q e)

/-- The accumulator after the first point of a run. -/
theorem first_point (c : Dev nD) (t : Fin cfg0.N) (h0 : t.val % 4 = 0) :
    (outsAt0 m c t.val t.isLt).2 = k0_pay2 (k0_pay1 (F := Ideal)) (iblk m c 0 t) (iblk m c 1 t) := by
  rw [outsAt0_A m c t h0 (by omega)]
  dsimp only
  exact Pieces.acc_first (F := Ideal) c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => (by omega : ¬t.val % 4 = 3) ((hcond0_1 t).mp h)) (iblk m c 0 t) (iblk m c 1 t) (iblk m c 2 t)

/-- The accumulator after any later point of a run: the point before's, stepped. -/
theorem next_point (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    exact Pieces.acc_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2
  · rw [outsAt0_B m c t h0 h1]
    dsimp only
    exact Pieces.acc_middle (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2

/-- The output tile at the last point of a run: that point's accumulator plus the bias row. -/
theorem last_point (c : Dev nD) (t : Fin cfg0.N) (h1 : t.val % 4 = 3) :
    (outsAt0 m c t.val t.isLt).1 = k0_pay3 (outsAt0 m c t.val t.isLt).2 (iblk m c 2 t) := by
  have h0 : ¬t.val % 4 = 0 := by omega
  rw [next_point m c t h0, outsAt0_C m c t h0 h1]
  dsimp only
  exact Pieces.out_last (F := Ideal) c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) ((hcond0_1 t).mpr h1) (iblk m c 0 t) (iblk m c 1 t) (iblk m c 2 t)
    (outsAt0 m c (t.val - 1) (Nat.lt_of_le_of_lt (Nat.sub_le _ _) t.isLt)).2

/-- THE ACCUMULATOR after point `n`, at place `(p, q)`: the dot product over the blocks of the run visited so far. -/
theorem acc_eq (c : Dev nD) : ∀ (n : ℕ) (hn : n < cfg0.N) (p q : Fin 1024),
    (outsAt0 m c n hn).2 (ix2 p q)
      = partialDot (tokenRow m c (p.val + 1024 * (n / 64))) (weightRow m c (q.val + 1024 * (n / 4 % 16))) (n % 4) := by
  intro n
  induction n with
  | zero =>
    intro hn p q
    refine (congrFun (first_point m c ⟨0, hn⟩ (Nat.zero_mod 4)) (ix2 p q)).trans ?_
    refine (Payload.step_apply _ (iblk m c 0 ⟨0, hn⟩) (iblk m c 1 ⟨0, hn⟩) p q).trans ?_
    rw [Payload.reset_apply, zero_add, product_at m c ⟨0, hn⟩ p q]
    show _ = partialDot _ _ 0
    rw [partialDot_zero]
    rfl
  | succ n ih =>
    intro hn p q
    by_cases h0 : (n + 1) % 4 = 0
    · refine (congrFun (first_point m c ⟨n + 1, hn⟩ h0) (ix2 p q)).trans ?_
      refine (Payload.step_apply _ (iblk m c 0 ⟨n + 1, hn⟩) (iblk m c 1 ⟨n + 1, hn⟩) p q).trans ?_
      rw [Payload.reset_apply, zero_add, product_at m c ⟨n + 1, hn⟩ p q]
      show (∑ e : Fin 1024, tokenRow m c (p.val + 1024 * ((n + 1) / 64)) (e.val + 1024 * ((n + 1) % 4))
          * weightRow m c (q.val + 1024 * ((n + 1) / 4 % 16)) (e.val + 1024 * ((n + 1) % 4))) = _
      rw [h0, partialDot_zero]
    · refine (congrFun (next_point m c ⟨n + 1, hn⟩ h0) (ix2 p q)).trans ?_
      refine (Payload.step_apply _ (iblk m c 0 ⟨n + 1, hn⟩) (iblk m c 1 ⟨n + 1, hn⟩) p q).trans ?_
      rw [product_at m c ⟨n + 1, hn⟩ p q]
      show (outsAt0 m c n (Nat.lt_of_succ_lt hn)).2 (ix2 p q)
          + (∑ e : Fin 1024, tokenRow m c (p.val + 1024 * ((n + 1) / 64)) (e.val + 1024 * ((n + 1) % 4))
              * weightRow m c (q.val + 1024 * ((n + 1) / 4 % 16)) (e.val + 1024 * ((n + 1) % 4))) = _
      have e1 : (n + 1) / 64 = n / 64 := by omega
      have e2 : (n + 1) / 4 % 16 = n / 4 % 16 := by omega
      have e3 : (n + 1) % 4 = n % 4 + 1 := by omega
      rw [e1, e2, e3, partialDot_succ, ih (Nat.lt_of_succ_lt hn) p q]

/-- THE TILE WRITTEN BACK at the last point `t` of a run, at place `(p, q)`: the whole dot product of token row
    `p + 1024·(t/64)` with weight row `q + 1024·(t/4%16)`, plus that column's bias. -/
theorem out_eq (c : Dev nD) (t : Fin cfg0.N) (h1 : t.val % 4 = 3) (p q : Fin 1024) :
    (outsAt0 m c t.val t.isLt).1 (ix2 p q)
      = (∑ k : Fin 4096, tokenRow m c (p.val + 1024 * (t.val / 64)) k.val * weightRow m c (q.val + 1024 * (t.val / 4 % 16)) k.val)
        + at2 (V m c main_v7 : S1x16384.Idx → EReal) 0 (q.val + 1024 * (t.val / 4 % 16)) := by
  refine (congrFun (last_point m c t h1) (ix2 p q)).trans ?_
  refine (Payload.finish_apply _ (iblk m c 2 t) p q).trans ?_
  rw [acc_eq m c t.val t.isLt p q, h1, partialDot_three, bias_at m c t q]

end Cert.KernelIdeal.Running

end
-- ==== Proof.Result.lean ====
/-
  From tiles to the whole result.

  Every output tile is written back exactly once, by the last point of its run, and the 8 · 16 tiles fill the [8192, 16384]
  result matrix.  Since each written tile is the restriction of ONE function of the three matrices — entry `(r, o)` is
  the dot product of token row `r` with weight row `o` plus bias `o` — the matrix ends holding that function.  The last
  step splits the row axis back into (batch, position): row `2048·b + s` becomes `(b, s)`.  Read through the three
  matrices' definitions this is the layer `Cert.Dense.dense` of the arguments.
-/
import proofs.«154579_j26517128085921_2_alg».proof.Proof.Running

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo Cert.Dense Cert.KernelIdeal.Blocks Cert.KernelIdeal.Running
open Idealize.ShloMosaic.Pipeline (Dat)

variable (m : (ℓ : Loc nD τ sig) → Buf (Elt Ideal) ℓ) (ρ : Dev nD → PrngReg)

/-- Rows against rows, plus the bias row: the [8192, 16384] matrix the tiled computation produces. -/
def product (A : S8192x4096.Idx → EReal) (W : S16384x4096.Idx → EReal) (B : S1x16384.Idx → EReal) : S8192x16384.Idx → EReal :=
  fun i => (∑ k : Fin 4096, A (ix2 (i 0 : Fin 8192) k) * W (ix2 (i 1 : Fin 16384) k)) + B (ix2 (0 : Fin 1) (i 1 : Fin 16384))

/-- Two tiles that agree place by place are equal. -/
theorem tile_ext (X Y : S1024x1024.Idx → EReal) (h : ∀ p q : Fin 1024, X (ix2 p q) = Y (ix2 p q)) : X = Y :=
  funext fun j => by rw [eq_ix2 j]; exact h _ _

/-- Place `(p, q)` of the output tile of point `t` is entry `(p + 1024·(t/64), q + 1024·(t/4%16))` of the result matrix. -/
theorem place (t : Fin cfg0.N) (p q : Fin 1024) (hr : p.val + 1024 * (t.val / 64) < 8192) (ho : q.val + 1024 * (t.val / 4 % 16) < 16384) :
    ((cfg0.win 3).blk t).view.emb (ix2 p q)
      = (ix2 (⟨p.val + 1024 * (t.val / 64), hr⟩ : Fin 8192) (⟨q.val + 1024 * (t.val / 4 % 16), ho⟩ : Fin 16384) : S8192x16384.Idx) := by
  funext a
  apply Fin.ext
  match a with
  | ⟨0, _⟩ => show win0_3.index t 0 * 1024 + 1 * p.val = p.val + 1024 * (t.val / 64); rw [(out_index t).1]; omega
  | ⟨1, _⟩ => show win0_3.index t 1 * 1024 + 1 * q.val = q.val + 1024 * (t.val / 4 % 16); rw [(out_index t).2]; omega

/-- What a point writes back is its tile of `product` of the three matrices. -/
theorem flushed_eq (c : Dev nD) (t : Fin cfg0.N) (hf : (cfg0.win 3).flush t = true) :
    (dats m 0 c).flushed 3 t
      = ((cfg0.win 3).blk t).view.read (Elt Ideal) (product (V m c main_v1) (V m c main_v6) (V m c main_v7)) := by
  have h3 : t.val % 4 = 3 := (flush0_3 t).mp hf
  have hN : t.val < 512 := lt_of_lt_of_eq t.isLt N_0
  show (cfg0.win 3).cut (grid0.coords t) ((dats m 0 c).after 3 t) = _
  rw [after0_3]
  refine tile_ext _ _ fun p q => ?_
  have hr : p.val + 1024 * (t.val / 64) < 8192 := by omega
  have ho : q.val + 1024 * (t.val / 4 % 16) < 16384 := by omega
  show (outsAt0 m c t.val t.isLt).1 (ix2 p q) = _
  rw [out_eq m c t h3 p q, View.read_apply, place t p q hr ho]
  unfold product
  rw [at2_of_lt _ _ _ (by omega) ho]
  congr 1
  refine Finset.sum_congr rfl fun k _ => ?_
  show at2 _ _ _ * at2 _ _ _ = _
  rw [at2_of_lt _ _ _ hr k.isLt, at2_of_lt _ _ _ ho k.isLt]

/-- An entry of the result matrix lies in point `t`'s tile iff each coordinate is in the tile's range. -/
theorem mem_tile (t : Fin cfg0.N) (i : S8192x16384.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v8).slice (win0_3.rect t)).set ↔ _
  rw [View.set_slice_whole, Rect.mem_set_unit]
  exact Iff.rfl

/-- Every entry is in the tile written back by the last point of the run of its row tile and column tile. -/
theorem covered (i : S8192x16384.Idx) :
    ∃ t : Fin cfg0.N, (cfg0.win 3).flush t = true ∧ i ∈ ((cfg0.win 3).blk t).view.set := by
  have h0 : (i 0).val < 8192 := (i 0).isLt
  have h1 : (i 1).val < 16384 := (i 1).isLt
  have hN : cfg0.N = 512 := N_0
  obtain ⟨t, ht⟩ : ∃ t : Fin cfg0.N, t.val = 64 * ((i 0).val / 1024) + 4 * ((i 1).val / 1024) + 3 :=
    ⟨⟨64 * ((i 0).val / 1024) + 4 * ((i 1).val / 1024) + 3, by omega⟩, rfl⟩
  refine ⟨t, (flush0_3 t).mpr (by omega), ?_⟩
  rw [mem_tile]
  intro a
  match a with
  | ⟨0, _⟩ =>
    show win0_3.index t 0 * 1024 ≤ (i 0).val ∧ (i 0).val < win0_3.index t 0 * 1024 + 1024
    rw [(out_index t).1]; omega
  | ⟨1, _⟩ =>
    show win0_3.index t 1 * 1024 ≤ (i 1).val ∧ (i 1).val < win0_3.index t 1 * 1024 + 1024
    rw [(out_index t).2]; omega

/-- The result matrix after the last point. -/
theorem final (c : Dev nD) :
    (dats m 0 c).arrAt 3 cfg0.N = product (V m c main_v1) (V m c main_v6) (V m c main_v7) :=
  (dats m 0 c).arrAt_eq_of_cover 3 _ (flushed_eq m c) covered

/-- The result: the matrix with its row axis split back into (batch, position). -/
def result (c : Dev nD) : S4x2048x16384.Idx → EReal :=
  shapeCast S4x2048x16384 (product (V m c main_v1) (V m c main_v6) (V m c main_v7)) shapeCasts_S8192x16384_S4x2048x16384

/-- The one operation after the tiled computation reshapes the result matrix. -/
theorem tail_eq (c : Dev nD) :
    Pipeline.afterTail₀ cfgs (dats m) 0 (V0 m) [hostOps1] c main_v9 = result m c := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = product (V m c main_v1) (V m c main_v6) (V m c main_v7) :=
    (Pipeline.withArrays_arr spec0 launch0.win.arr_inj c _ _ 3).trans (final m c)
  rw [e]
  rfl

/-- Entry `(b, s, o)` of the result is entry `(2048·b + s, o)` of the result matrix. -/
theorem result_apply (c : Dev nD) (b : Fin 4) (s : Fin 2048) (o : Fin 16384) :
    result m c (ix3 b s o)
      = product (V m c main_v1) (V m c main_v6) (V m c main_v7) (ix2 (⟨s.val + 2048 * b.val, by omega⟩ : Fin 8192) o) := by
  unfold result
  refine shapeCast_apply (s := S8192x16384) (t := S4x2048x16384) _ _ _ _ ?_
  rw [Shape.rowMajor_val_two, Shape.rowMajor_val_three]
  show (s.val + 2048 * b.val) * 16384 + o.val = (b.val * 2048 + s.val) * 16384 + o.val
  omega

/-- An entry of the result matrix, spelt out. -/
theorem product_apply (A : S8192x4096.Idx → EReal) (W : S16384x4096.Idx → EReal) (B : S1x16384.Idx → EReal)
    (r : Fin 8192) (o : Fin 16384) :
    product A W B (ix2 r o) = (∑ k : Fin 4096, A (ix2 r k) * W (ix2 o k)) + B (ix2 (0 : Fin 1) o) := rfl

/-- Row `s + 2048·b` of the token matrix is token `(b, s)` of the input. -/
theorem tokens_row (c : Dev nD) (b : Fin 4) (s : Fin 2048) (k : Fin 4096) :
    (V m c main_v1 : S8192x4096.Idx → EReal) (ix2 (⟨s.val + 2048 * b.val, by omega⟩ : Fin 8192) k)
      = m ((c : Thread nD τ).loc main_arg0) (ix3 b s k) := by
  rw [tokens_matrix]
  refine congrArg (m ((c : Thread nD τ).loc main_arg0)) ?_
  funext a
  apply Fin.ext
  match a with
  | ⟨0, _⟩ => show (s.val + 2048 * b.val) / 2048 = b.val; omega
  | ⟨1, _⟩ => show (s.val + 2048 * b.val) % 2048 = s.val; omega
  | ⟨2, _⟩ => rfl

/-- THE KERNEL'S VALUE: the result is the layer of the arguments. -/
theorem result_eq (c : Dev nD) :
    result m c = dense (m ((c : Thread nD τ).loc main_arg0))
      (dequant (m ((c : Thread nD τ).loc main_arg1)) (m ((c : Thread nD τ).loc main_arg2))) (m ((c : Thread nD τ).loc main_arg3)) := by
  funext i
  obtain ⟨b, s, o, rfl⟩ : ∃ (b : Fin 4) (s : Fin 2048) (o : Fin 16384), i = ix3 b s o := ⟨i 0, i 1, i 2, eq_ix3 i⟩
  rw [result_apply, product_apply, bias_matrix]
  unfold dense
  congr 1
  refine Finset.sum_congr rfl fun k _ => ?_
  rw [tokens_row, weights_matrix]

/-- The run of the idealized kernel, read: the result holds the layer of the arguments, which end unchanged. -/
theorem run : θ_run defs (onTc (τ := τ) (main (F := Ideal))) ⟨m, fun _ => 0, ρ⟩ fun r => ∀ c : Dev nD,
      r.2.mem ((c : Thread nD τ).loc main_v9) = dense (m ((c : Thread nD τ).loc main_arg0))
          (dequant (m ((c : Thread nD τ).loc main_arg1)) (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨(((h c).2 main_v9 (Pipeline.mem_restRefs_of main_v9 (by decide) (by decide))).trans (tail_eq m c)).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.KernelIdeal.Result

end
-- ==== Proof.Reference.lean ====
/-
  The reference computes the layer directly: it dequantizes the codes (the one scale broadcast over the whole matrix),
  contracts the last axis of the input with the last axis of the weights in one go, and adds the bias broadcast over batch
  and position.  Read at an index this is `Cert.Dense.dense` word for word.
-/
import proofs.«154579_j26517128085921_2_alg».proof.Proof.Gen.ReferenceIdeal.Read
import proofs.«154579_j26517128085921_2_alg».proof.Proof.Spec

noncomputable section

open scoped BigOperators

namespace Cert.ReferenceIdeal.RefValue

open Cert.ReferenceIdeal Cert.ReferenceIdeal.Read Idealize.ShloMosaic Idealize.ShloMosaic.ValueIdx Cert.Dense

/-- The reference's result, index by index, is the layer of its arguments. -/
theorem reference_eq (x0 : (⟨S4x2048x4096, .f32⟩ : BufTy).Contents (Elt Ideal)) (x1 : (⟨S16384x4096, .i32⟩ : BufTy).Contents (Elt Ideal))
    (x2 : (⟨S1, .f32⟩ : BufTy).Contents (Elt Ideal)) (x3 : (⟨S16384, .f32⟩ : BufTy).Contents (Elt Ideal)) :
    val_main_v7 (F := Ideal) x0 x1 x2 x3 = dense x0 (dequant x1 x2) x3 := by
  funext i
  rw [val_main_v7_apply, val_main_v4_apply, val_main_v6_apply, val_main_v5_apply]
  unfold dense
  show (∑ k : Fin 4096, x0 (lidx_main_v4 i k) * val_main_v3 (F := Ideal) x1 x2 (ridx_main_v4 i k)) + x3 (idx_main_v5 (idx_main_v6 i)) = _
  congr 1
  · refine Finset.sum_congr rfl fun k _ => ?_
    rw [val_main_v3_apply, val_main_v0_apply, val_main_v2_apply, val_main_v1_apply]
    have hl : lidx_main_v4 i k = ix3 (i 0 : Fin 4) (i 1 : Fin 2048) k :=
      funext fun a => Fin.ext (by match a with | ⟨0, _⟩ => rfl | ⟨1, _⟩ => rfl | ⟨2, _⟩ => rfl)
    have hr : ridx_main_v4 i k = ix2 (i 2 : Fin 16384) k :=
      funext fun a => Fin.ext (by match a with | ⟨0, _⟩ => rfl | ⟨1, _⟩ => rfl)
    have hs : idx_main_v1 (idx_main_v2 (ridx_main_v4 i k)) = ix1 (0 : Fin 1) :=
      funext fun a => Fin.ext (by match a with | ⟨0, _⟩ => rfl)
    rw [hl, hr, hs]
    rfl
  · congr 1
    funext a
    match a with
    | ⟨0, _⟩ => rfl

end Cert.ReferenceIdeal.RefValue

end
-- ==== Proof.lean ====
/-
  A dense layer over dequantized weights, tiled, against the same layer computed in one contraction.

  Both programs compute `y[b,s,o] = Σ_{k<4096} x[b,s,k] · (float(code[o,k]) · scale) + bias[o]` over the extended reals.
  The reference does it with one contraction over `k`.  The kernel dequantizes the weights once, merges (batch, position)
  into 8192 rows, and walks a grid of 8 × 16 output tiles, for each of them four blocks of 1024 columns of the contracted
  axis: an accumulator tile is reset at the first block and receives one partial product per block; after the fourth it is
  stored, with the bias row added, as the output tile.  The two agree because a sum over 4096 places may be taken as four
  consecutive sums of 1024 — regrouping a finite sum is valid in every commutative additive monoid, so on the extended
  reals too, with no finiteness assumption (the precondition is never opened) — and the accumulator's initial zero is
  neutral.  Changes of float format are the identity on the extended reals, so the kernel's narrower operands do not matter.

  The modules: `Spec` (the layer and the regrouping law), `Payload` (the body's three stored values at a place),
  `Pieces` (what one call of the body leaves, per situation), `Blocks` (which entries a tile holds; the three matrices from
  the arguments), `Running` (the accumulator along a run, by induction on the point), `Result` (tiles to the whole result;
  the kernel's run), `Reference` (the reference is the layer).  The three frames are the generated ones (the reference's is
  its generated run with the value dropped); the idealization rewrote nothing.
-/
import proofs.«154579_j26517128085921_2_alg».proof.Defs
import proofs.«154579_j26517128085921_2_alg».proof.Proof.Gen.Kernel
import proofs.«154579_j26517128085921_2_alg».proof.Proof.Gen.Kernel.Skeleton
import proofs.«154579_j26517128085921_2_alg».proof.Proof.Gen.Kernel.Launch
import proofs.«154579_j26517128085921_2_alg».proof.Proof.Gen.Kernel.Points
import proofs.«154579_j26517128085921_2_alg».proof.Proof.Gen.Kernel.Frame
import proofs.«154579_j26517128085921_2_alg».proof.Proof.Gen.KernelIdeal
import proofs.«154579_j26517128085921_2_alg».proof.Proof.Gen.KernelIdeal.Skeleton
import proofs.«154579_j26517128085921_2_alg».proof.Proof.Gen.KernelIdeal.Launch
import proofs.«154579_j26517128085921_2_alg».proof.Proof.Gen.KernelIdeal.Points
import proofs.«154579_j26517128085921_2_alg».proof.Proof.Gen.KernelIdeal.Frame
import proofs.«154579_j26517128085921_2_alg».proof.Proof.Gen.ReferenceIdeal
import proofs.«154579_j26517128085921_2_alg».proof.Proof.Gen.ReferenceIdeal.Run
import proofs.«154579_j26517128085921_2_alg».proof.Proof.Gen.ReferenceIdeal.Read
import proofs.«154579_j26517128085921_2_alg».proof.Proof.Gen.Pre_finite_inputs
import proofs.«154579_j26517128085921_2_alg».proof.Proof.Result
import proofs.«154579_j26517128085921_2_alg».proof.Proof.Reference
import Idealize.ShloMosaic.Adequacy
import Idealize.ShloMosaic.Init

noncomputable section

namespace Cert.Proof

open Idealize.ShloMosaic Idealize.ShloMosaic.TcCoe Idealize.SL.Sem

/-- The three frames. -/
theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- Both runs end with the layer of the (agreeing) arguments in their result. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
